-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x256 .f32) (main_arg1 : FVec F S4096x4096 .f32) (main_arg2 : FVec F S4096x1 .f32) (main_arg3 : FVec F S256x256 .f32) (main_arg4 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S1x256 : Shape := ⟨2, ![1, 256]⟩
abbrev S512x2048 : Shape := ⟨2, ![512, 2048]⟩
abbrev S512x1 : Shape := ⟨2, ![512, 1]⟩
abbrev S512x256 : Shape := ⟨2, ![512, 256]⟩
abbrev S2048x256 : Shape := ⟨2, ![2048, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x1, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S4096x256, .bf16⟩
  | .hbm, ⟨7, _⟩ => ⟨S4096x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S4096x256, .bf16⟩
  | .local _ .vmem, ⟨5, _⟩ => ⟨S512x1, .f32⟩
  | .local _ .vmem, ⟨6, _⟩ => ⟨S512x1, .f32⟩
  | .local _ .vmem, ⟨7, _⟩ => ⟨S256x256, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v11 : BitVec 32 := Scalar.muli arg0 c512_i32
  let v12 : Index := Scalar.indexCast v11
  let c0_7 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S4096x256_S2048x256_0_0 : ∀ a, (![0, 0] : Fin 2 → Nat) a + S2048x256.size a ≤ S4096x256.size a
  h_S2048x256 : 0 < S2048x256.numel
  shapeCasts_S2048x256_S2048x256 : S2048x256.ShapeCasts S2048x256
  inb_S4096x256_S2048x256_2048_0 : ∀ a, (![2048, 0] : Fin 2 → Nat) a + S2048x256.size a ≤ S4096x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  inb_S512x1_S512x1_0_0 : ∀ a, (![0, 0] : Fin 2 → Nat) a + S512x1.size a ≤ S512x1.size a
  h_S512x1 : 0 < S512x1.numel
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x256.size a
  hwx0_6 : ∀ i : grid0.Coords, EltTy.bits .f32 = 32 ∨ (Rect.block (s := S4096x256) S512x256.size (cc0_transform_6 i) (hinb0_6 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x1, .f32⟩
  | .hbm, ⟨3, _⟩ => ⟨S256x256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.LibSharedFrame.lean ====
/-
  A frame run for a one-region pipeline program whose INPUT windows may stage blocks of ONE array.

  The library's frame run (Lib/Pipeline/Frame.lean) asks that the windows' arrays be pairwise distinct buffers, each
  held at the full share. When a kernel is handed one array through several input windows — two column halves of a
  matrix, say — that fails: the buffer behind the shared array is one, and its full share has to be dealt among the
  windows on it. The launch itself copes (Lib/Pipeline/Launch.lean, the launch for windows that share arrays, which asks
  only for the layout facts but the arrays' distinctness, and for an entailment from the distinct buffers behind the
  arrays, each whole at the full share, to the proof data's arrays at the shares the data name); this file restates
  that launch in the frame run's form:

  * the region invariant is the certificate's, entered from the core's scoped rest (the kernel's scratch, at any
    contents) and returned to it — a body that only loads and stores its staging buffers needs nothing else;
  * every unscoped buffer that is no window's array bypasses the region and is read back at the end;
  * the conclusion is the library's frame post: every window's array at what the proof data compute after the last
    write-back, every bypassing buffer as the region found it.

  Nothing here mentions a particular kernel.
-/
import Idealize.ShloMosaic.Lib.Pipeline.Frame

noncomputable section

namespace Cert.Lib.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- One buffer's full share is its two halves, each at the same contents: how an array read through two input
    windows is dealt between them. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀

/-- THE FRAME RUN when input windows share arrays. The layout is given by its fields (`hcell`: the program's staging
    cells pairwise distinct; `hw`: the windows' arrays unscoped, the staging buffers scoped and distinct, the staging
    semaphores scoped; no block empty; arrays and staging memrefs whole buffers). `hsplit` says how the distinct
    buffers behind the arrays, each whole at the full share at the region-entry contents `V`, make the proof data's
    arrays at the shares the data name. The invariant is entered from the scoped rest and returned to it (`hin`,
    `hout`). Concludes the library's frame post. -/
theorem θ_run_frame_shared
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run 𝔻 (onTc main) (s₀ m g) (FramePost cfgs dats p V) :=
  θ_run_region_noSem_shared cfgs dats () hcell p hw emb₁ defs₀ 𝒱₀ m g main hbody hne harr hstage howed
    (initOf (cells cfgs hcell) (launchToks cfgs hcell)) (BI.Entails.refl _) V hmain hsplit
    (fun _ => iprop(emp)) (fun _ => iprop(emp))
    (fun c => unscopedRest (Ix := Unit) (Name := ℕ) (U := UR sig nD τ) (Lvl := ℕ) (cfgs p).spec c (V c))
    (fun c => by iintro H; isplitr; · iempintro
                 iexact H)
    (fun c => (show iprop(emp ∗ scopedRest (cfgs p).spec c) ⊢ (scopedRest (cfgs p).spec c : sProp 𝕄) from by
        iintro ⟨-, H⟩; iexact H).trans (hin c))
    (fun c => (hout c).trans (by iintro H; isplitr; · iempintro
                                 iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h => h)

end Cert.Lib.SharedFrame

end
-- ==== Proof.KernelBody.lean ====
/-
  The run of `Kernel`'s one kernel region, and with it the program's frame: every weakly fair execution of @main
  terminates without a fault, the argument arrays end as they were, and the result array ends at what the kernel's
  body leaves, block by block.

  The program: two host operations (the bias reshaped to a row, the node features converted to bf16), then one
  pipelined region over 8 grid points. At point `t` the body is handed
    * window 0 and window 1 — rows `512·t … 512·t + 511` of the adjacency matrix, its left and its right 2048 columns:
      TWO input windows on ONE array;
    * window 2 — all of the converted features (fetched once, resident);
    * window 3 — the same 512 rows of the degree column;
    * window 4, window 5 — all of the weight matrix and of the bias row (resident);
  and stores window 6, rows `512·t … 512·t + 511` of the result, whole, at one pure function of what it loaded
  (the skeleton's payload): among the loads is the slice of 512 feature rows at the point-dependent offset `512·t`.

  Because windows 0 and 1 stage blocks of one buffer, that buffer's full share is dealt between them by halves
  (`arrays_of_buffers`), and the launch is the frame run for shared input arrays (`Cert.Lib.SharedFrame`). Everything
  else follows the shape of a kernel that loads, computes and stores through rectangles: what the body leaves in the
  result's staging buffer is the canon of its one covering store over the input blocks (`resultBlock`), the body's
  triple is run symbolically on whole staging memrefs (`body_triple`), an input's staging buffer holds its block at
  every point whether fetched there or not, and the proof data name exactly these contents. Stated for any float
  instance `F`.
-/
import proofs.«163013_g78726750535692_cont_9to1_m_447_14_alg».proof.Proof.Gen.Kernel.Launch
import proofs.«163013_g78726750535692_cont_9to1_m_447_14_alg».proof.Proof.Gen.Kernel.Skeleton
import proofs.«163013_g78726750535692_cont_9to1_m_447_14_alg».proof.Proof.Gen.Kernel.Points
import proofs.«163013_g78726750535692_cont_9to1_m_447_14_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region, then the return. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the reshaped bias and the converted features only: an argument array is found by the
    region as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves the
    block in place. One statement per input window: the window's number is a literal in each. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of an adjacency strip's staging buffer; -/
abbrev rAdj : Rect S512x2048 := Rect.unit (s := S512x2048) ![0, 0] S512x2048.size inb_S512x2048_S512x2048_0_0
/-- the upper and the lower 2048 rows of the resident features; -/
abbrev rFeatLo : Rect S4096x256 := Rect.unit (s := S4096x256) ![0, 0] S2048x256.size inb_S4096x256_S2048x256_0_0
abbrev rFeatHi : Rect S4096x256 := Rect.unit (s := S4096x256) ![2048, 0] S2048x256.size inb_S4096x256_S2048x256_2048_0
/-- the 512 feature rows of the point's own strip, at the offset the kernel computes from the grid coordinate; -/
abbrev rFeatOwn (i : grid0.Coords) : Rect S4096x256 := Rect.unit (s := S4096x256) (k0_off1 i) S512x256.size (k0_off1_inb i)
/-- the whole weight matrix, degree strip, bias row and result block. -/
abbrev rWeight : Rect S256x256 := Rect.unit (s := S256x256) ![0, 0] S256x256.size inb_S256x256_S256x256_0_0
abbrev rDeg : Rect S512x1 := Rect.unit (s := S512x1) ![0, 0] S512x1.size inb_S512x1_S512x1_0_0
abbrev rBias : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the result window's buffer -/

/-- The result's staging buffer after the body at grid coordinates `i`, from the input windows' blocks: its one
    store, of the payload over the loads. -/
def resultBlock (i : grid0.Coords) (adjL adjR : Vec F S512x2048 .f32) (feat : Vec F S4096x256 .bf16) (deg : Vec F S512x1 .f32)
    (wgt : Vec F S256x256 .f32) (bias : Vec F S1x256 .f32) : Vec F S512x256 .f32 :=
  View.canon [⟨rOut, k0_pay1 (View.ld adjL rAdj) (View.ld feat rFeatLo) (View.ld adjR rAdj) (View.ld feat rFeatHi)
    (View.ld feat (rFeatOwn i)) (View.ld wgt rWeight) (View.ld deg rDeg) (View.ld bias rBias)⟩]

/-- The one store covers the buffer. -/
theorem result_cover (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 1000000 in
/-- The kernel body on whole staging memrefs, the inputs' at contents `x…` and the result's at anything, runs to the
    continuation holding the inputs' as they were and the result's at `resultBlock` of them. -/
theorem body_triple (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S4096x256 .bf16) (harg3 : arg3.IsWhole) (arg4 : Memref sig .tc .vmem S512x1 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole)
    (x0 x1 : Vec F S512x2048 .f32) (x2 : Vec F S4096x256 .bf16) (x3 : Vec F S512x1 .f32) (x4 : Vec F S256x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (resultBlock i x0 x1 x2 x3 x4 x5)) -∗ K ⟨⟩))
      ⊢ wp frame (wpE (defs₀ (F := F)) Variants.none c none) E
          (cc0__gcn_block i arg1 harg1 arg2 harg2 arg3 harg3 arg4 harg4 arg5 harg5 arg6 harg6 arg7 harg7) K := by
  simp only [cc0__gcn_block_eq_skeleton]; unfold cc0__gcn_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (result_cover _)

end Cert.Kernel.Hand

end
-- ==== Proof.KernelData.lean ====
/-
  `Kernel`'s proof data, its body obligation at every grid point, how the adjacency matrix's one buffer is dealt to
  the two windows that stage its halves, and the run: every weakly fair execution of @main terminates, every window's
  array ends at what the proof data compute after the last write-back, every other array as the region found it.
  For any float instance `F`.
-/
import proofs.«163013_g78726750535692_cont_9to1_m_447_14_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's staging buffer at its
    block and the result's at `resultBlock` of the input blocks; no invariant (the kernel has no scratch); nothing
    owed; the adjacency matrix held by halves — its left half-share by window 0, its right by window 1 — and every
    other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resultBlock (grid0.coords t) (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = resultBlock (grid0.coords t) (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  `Kernel`'s launch: the adjacency matrix's buffer, held whole at the region's entry, is dealt by halves to the two
  windows that stage its column halves; with that, the frame run for shared input arrays gives the run of @main, and
  reading the run's post at the argument arrays gives the program's frame. For any float instance `F`.
-/
import proofs.«163013_g78726750535692_cont_9to1_m_447_14_alg».proof.Proof.KernelData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, from the buffers behind them -/

/-- The distinct buffers behind the seven windows' arrays: the adjacency matrix (windows 0 and 1), the converted
    features, the degrees, the weights, the bias row, the result. -/
theorem arrRefs_eq : Finset.univ.image (Pipeline.arrRef spec0) = [main_arg1, main_v1, main_arg2, main_arg3, main_v0, main_v2].toFinset := by
  decide

/-- One window's entry in the proof data's `arrays`, at the region-entry contents: the window's array is a whole
    buffer, so the entry is that buffer's points-to at the window's share. -/
theorem arrays_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]
  rfl

/-- The buffers behind the arrays, each whole at the full share at the region-entry contents, are the proof data's
    arrays at entry: the adjacency matrix's full share splits into the two halves windows 0 and 1 hold. -/
theorem arrays_of_buffers (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arrRefs_eq (by decide), bigSep_W0,
    arrays_entry m c 0 fullShare.left rfl, arrays_entry m c 1 fullShare.right rfl, arrays_entry m c 2 fullShare rfl,
    arrays_entry m c 3 fullShare rfl, arrays_entry m c 4 fullShare rfl, arrays_entry m c 5 fullShare rfl,
    arrays_entry m c 6 fullShare rfl]
  show iprop((((c : Thread nD τ).loc main_arg1) ↦{fullShare} V m c main_arg1) ∗ (((c : Thread nD τ).loc main_v1) ↦{fullShare} V m c main_v1)
      ∗ (((c : Thread nD τ).loc main_arg2) ↦{fullShare} V m c main_arg2) ∗ (((c : Thread nD τ).loc main_arg3) ↦{fullShare} V m c main_arg3)
      ∗ (((c : Thread nD τ).loc main_v0) ↦{fullShare} V m c main_v0) ∗ (((c : Thread nD τ).loc main_v2) ↦{fullShare} V m c main_v2))
    ⊢ (iprop((((c : Thread nD τ).loc main_arg1) ↦{fullShare.left} V m c main_arg1) ∗ (((c : Thread nD τ).loc main_arg1) ↦{fullShare.right} V m c main_arg1)
      ∗ (((c : Thread nD τ).loc main_v1) ↦{fullShare} V m c main_v1)
      ∗ (((c : Thread nD τ).loc main_arg2) ↦{fullShare} V m c main_arg2) ∗ (((c : Thread nD τ).loc main_arg3) ↦{fullShare} V m c main_arg3)
      ∗ (((c : Thread nD τ).loc main_v0) ↦{fullShare} V m c main_v0) ∗ (((c : Thread nD τ).loc main_v2) ↦{fullShare} V m c main_v2)) : sProp 𝕄)
  iintro ⟨Hadj, Hx, Hdeg, Hw, Hb, Hout⟩
  icases (Cert.Lib.SharedFrame.pointsTo_halves _ _) $$ Hadj with ⟨Hl, Hr⟩
  isplitl [Hl]; · iexact Hl
  isplitl [Hr]; · iexact Hr
  isplitl [Hx]; · iexact Hx
  isplitl [Hdeg]; · iexact Hdeg
  isplitl [Hw]; · iexact Hw
  isplitl [Hb]; · iexact Hb
  iexact Hout

/-! ## The run and the frame -/

set_option backward.isDefEq.respectTransparency.types false in
/-- From any memory with zero counters: every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_of_buffers m)
    (hin := fun c => by rw [scopedRest0_eq]; exact BI.Entails.refl _)
    (hout := fun c => by rw [scopedRest0_eq]; exact BI.Entails.refl _)

/-- info: 'Cert.Kernel.Hand.run_main' depends on axioms: [propext, Classical.choice, Quot.sound] -/
#guard_msgs in #print axioms run_main

/-- THE FRAME, at any `F`: the five argument arrays end as launched. The adjacency matrix, the degrees and the
    weights are input windows' arrays (never written back); the features and the bias are staged by no window and
    bypass the region; none is written by the host operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel.Hand

end
-- ==== Proof.KernelIdealBody.lean ====
/-
  The run of `KernelIdeal`'s one kernel region, and with it the program's frame: every weakly fair execution of @main
  terminates without a fault, the argument arrays end as they were, and the result array ends at what the kernel's
  body leaves, block by block.

  The program: two host operations (the bias reshaped to a row, the node features converted to bf16), then one
  pipelined region over 8 grid points. At point `t` the body is handed
    * window 0 and window 1 — rows `512·t … 512·t + 511` of the adjacency matrix, its left and its right 2048 columns:
      TWO input windows on ONE array;
    * window 2 — all of the converted features (fetched once, resident);
    * window 3 — the same 512 rows of the degree column;
    * window 4, window 5 — all of the weight matrix and of the bias row (resident);
  and stores window 6, rows `512·t … 512·t + 511` of the result, whole, at one pure function of what it loaded
  (the skeleton's payload): among the loads is the slice of 512 feature rows at the point-dependent offset `512·t`.

  Because windows 0 and 1 stage blocks of one buffer, that buffer's full share is dealt between them by halves
  (`arrays_of_buffers`), and the launch is the frame run for shared input arrays (`Cert.Lib.SharedFrame`). Everything
  else follows the shape of a kernel that loads, computes and stores through rectangles: what the body leaves in the
  result's staging buffer is the canon of its one covering store over the input blocks (`resultBlock`), the body's
  triple is run symbolically on whole staging memrefs (`body_triple`), an input's staging buffer holds its block at
  every point whether fetched there or not, and the proof data name exactly these contents. Stated for any float
  instance `F`.
-/
import proofs.«163013_g78726750535692_cont_9to1_m_447_14_alg».proof.Proof.Gen.KernelIdeal.Launch
import proofs.«163013_g78726750535692_cont_9to1_m_447_14_alg».proof.Proof.Gen.KernelIdeal.Skeleton
import proofs.«163013_g78726750535692_cont_9to1_m_447_14_alg».proof.Proof.Gen.KernelIdeal.Points
import proofs.«163013_g78726750535692_cont_9to1_m_447_14_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region, then the return. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the reshaped bias and the converted features only: an argument array is found by the
    region as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is the region-entry contents and whose body leaves the
    block in place. One statement per input window: the window's number is a literal in each. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of an adjacency strip's staging buffer; -/
abbrev rAdj : Rect S512x2048 := Rect.unit (s := S512x2048) ![0, 0] S512x2048.size inb_S512x2048_S512x2048_0_0
/-- the upper and the lower 2048 rows of the resident features; -/
abbrev rFeatLo : Rect S4096x256 := Rect.unit (s := S4096x256) ![0, 0] S2048x256.size inb_S4096x256_S2048x256_0_0
abbrev rFeatHi : Rect S4096x256 := Rect.unit (s := S4096x256) ![2048, 0] S2048x256.size inb_S4096x256_S2048x256_2048_0
/-- the 512 feature rows of the point's own strip, at the offset the kernel computes from the grid coordinate; -/
abbrev rFeatOwn (i : grid0.Coords) : Rect S4096x256 := Rect.unit (s := S4096x256) (k0_off1 i) S512x256.size (k0_off1_inb i)
/-- the whole weight matrix, degree strip, bias row and result block. -/
abbrev rWeight : Rect S256x256 := Rect.unit (s := S256x256) ![0, 0] S256x256.size inb_S256x256_S256x256_0_0
abbrev rDeg : Rect S512x1 := Rect.unit (s := S512x1) ![0, 0] S512x1.size inb_S512x1_S512x1_0_0
abbrev rBias : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the result window's buffer -/

/-- The result's staging buffer after the body at grid coordinates `i`, from the input windows' blocks: its one
    store, of the payload over the loads. -/
def resultBlock (i : grid0.Coords) (adjL adjR : Vec F S512x2048 .f32) (feat : Vec F S4096x256 .bf16) (deg : Vec F S512x1 .f32)
    (wgt : Vec F S256x256 .f32) (bias : Vec F S1x256 .f32) : Vec F S512x256 .f32 :=
  View.canon [⟨rOut, k0_pay1 (View.ld adjL rAdj) (View.ld feat rFeatLo) (View.ld adjR rAdj) (View.ld feat rFeatHi)
    (View.ld feat (rFeatOwn i)) (View.ld wgt rWeight) (View.ld deg rDeg) (View.ld bias rBias)⟩]

/-- The one store covers the buffer. -/
theorem result_cover (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 1000000 in
/-- The kernel body on whole staging memrefs, the inputs' at contents `x…` and the result's at anything, runs to the
    continuation holding the inputs' as they were and the result's at `resultBlock` of them. -/
theorem body_triple (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S4096x256 .bf16) (harg3 : arg3.IsWhole) (arg4 : Memref sig .tc .vmem S512x1 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole)
    (x0 x1 : Vec F S512x2048 .f32) (x2 : Vec F S4096x256 .bf16) (x3 : Vec F S512x1 .f32) (x4 : Vec F S256x256 .f32) (x5 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (resultBlock i x0 x1 x2 x3 x4 x5)) -∗ K ⟨⟩))
      ⊢ wp frame (wpE (defs₀ (F := F)) Variants.none c none) E
          (cc0__gcn_block i arg1 harg1 arg2 harg2 arg3 harg3 arg4 harg4 arg5 harg5 arg6 harg6 arg7 harg7) K := by
  simp only [cc0__gcn_block_eq_skeleton]; unfold cc0__gcn_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (result_cover _)

end Cert.KernelIdeal.Hand

end
-- ==== Proof.KernelIdealData.lean ====
/-
  `KernelIdeal`'s proof data, its body obligation at every grid point, how the adjacency matrix's one buffer is dealt to
  the two windows that stage its halves, and the run: every weakly fair execution of @main terminates, every window's
  array ends at what the proof data compute after the last write-back, every other array as the region found it.
  For any float instance `F`.
-/
import proofs.«163013_g78726750535692_cont_9to1_m_447_14_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's staging buffer at its
    block and the result's at `resultBlock` of the input blocks; no invariant (the kernel has no scratch); nothing
    owed; the adjacency matrix held by halves — its left half-share by window 0, its right by window 1 — and every
    other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resultBlock (grid0.coords t) (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = resultBlock (grid0.coords t) (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  `KernelIdeal`'s launch: the adjacency matrix's buffer, held whole at the region's entry, is dealt by halves to the two
  windows that stage its column halves; with that, the frame run for shared input arrays gives the run of @main, and
  reading the run's post at the argument arrays gives the program's frame. For any float instance `F`.
-/
import proofs.«163013_g78726750535692_cont_9to1_m_447_14_alg».proof.Proof.KernelIdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, from the buffers behind them -/

/-- The distinct buffers behind the seven windows' arrays: the adjacency matrix (windows 0 and 1), the converted
    features, the degrees, the weights, the bias row, the result. -/
theorem arrRefs_eq : Finset.univ.image (Pipeline.arrRef spec0) = [main_arg1, main_v1, main_arg2, main_arg3, main_v0, main_v2].toFinset := by
  decide

/-- One window's entry in the proof data's `arrays`, at the region-entry contents: the window's array is a whole
    buffer, so the entry is that buffer's points-to at the window's share. -/
theorem arrays_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]
  rfl

/-- The buffers behind the arrays, each whole at the full share at the region-entry contents, are the proof data's
    arrays at entry: the adjacency matrix's full share splits into the two halves windows 0 and 1 hold. -/
theorem arrays_of_buffers (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arrRefs_eq (by decide), bigSep_W0,
    arrays_entry m c 0 fullShare.left rfl, arrays_entry m c 1 fullShare.right rfl, arrays_entry m c 2 fullShare rfl,
    arrays_entry m c 3 fullShare rfl, arrays_entry m c 4 fullShare rfl, arrays_entry m c 5 fullShare rfl,
    arrays_entry m c 6 fullShare rfl]
  show iprop((((c : Thread nD τ).loc main_arg1) ↦{fullShare} V m c main_arg1) ∗ (((c : Thread nD τ).loc main_v1) ↦{fullShare} V m c main_v1)
      ∗ (((c : Thread nD τ).loc main_arg2) ↦{fullShare} V m c main_arg2) ∗ (((c : Thread nD τ).loc main_arg3) ↦{fullShare} V m c main_arg3)
      ∗ (((c : Thread nD τ).loc main_v0) ↦{fullShare} V m c main_v0) ∗ (((c : Thread nD τ).loc main_v2) ↦{fullShare} V m c main_v2))
    ⊢ (iprop((((c : Thread nD τ).loc main_arg1) ↦{fullShare.left} V m c main_arg1) ∗ (((c : Thread nD τ).loc main_arg1) ↦{fullShare.right} V m c main_arg1)
      ∗ (((c : Thread nD τ).loc main_v1) ↦{fullShare} V m c main_v1)
      ∗ (((c : Thread nD τ).loc main_arg2) ↦{fullShare} V m c main_arg2) ∗ (((c : Thread nD τ).loc main_arg3) ↦{fullShare} V m c main_arg3)
      ∗ (((c : Thread nD τ).loc main_v0) ↦{fullShare} V m c main_v0) ∗ (((c : Thread nD τ).loc main_v2) ↦{fullShare} V m c main_v2)) : sProp 𝕄)
  iintro ⟨Hadj, Hx, Hdeg, Hw, Hb, Hout⟩
  icases (Cert.Lib.SharedFrame.pointsTo_halves _ _) $$ Hadj with ⟨Hl, Hr⟩
  isplitl [Hl]; · iexact Hl
  isplitl [Hr]; · iexact Hr
  isplitl [Hx]; · iexact Hx
  isplitl [Hdeg]; · iexact Hdeg
  isplitl [Hw]; · iexact Hw
  isplitl [Hb]; · iexact Hb
  iexact Hout

/-! ## The run and the frame -/

set_option backward.isDefEq.respectTransparency.types false in
/-- From any memory with zero counters: every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_of_buffers m)
    (hin := fun c => by rw [scopedRest0_eq]; exact BI.Entails.refl _)
    (hout := fun c => by rw [scopedRest0_eq]; exact BI.Entails.refl _)

/-- info: 'Cert.KernelIdeal.Hand.run_main' depends on axioms: [propext, Classical.choice, Quot.sound] -/
#guard_msgs in #print axioms run_main

/-- THE FRAME, at any `F`: the five argument arrays end as launched. The adjacency matrix, the degrees and the
    weights are input windows' arrays (never written back); the features and the bias are staged by no window and
    bypass the region; none is written by the host operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Hand

end
-- ==== Proof.KernelIdealPayload.lean ====
/-
  The kernel body's arithmetic at the ideal instance, read at one element of the 512 × 256 result block.

  The payload is, of the body's eight loads — the two adjacency half-strips `aL`, `aR` (512 × 2048), the upper and
  lower halves `xL`, `xH` of the features (2048 × 256), the strip's own 512 feature rows `xO`, the weights `w`
  (256 × 256), the degree strip `dg` (512 × 1) and the bias row `bs` (1 × 256) —

      ( (aL · xL + aR · xH + xO) · w ) / dg  +  bs ,

  each product a matrix product into a zero accumulator, the degree column broadcast along the rows and the bias row
  down the columns. At the ideal instance a change of float format is the identity and a product into the zero
  accumulator is the plain sum over the contracted axis, so at row `p`, column `c` it is

      ( Σ_j ( Σ_k aL[p,k]·xL[k,j] + Σ_k aR[p,k]·xH[k,j] + xO[p,j] ) · w[j,c] ) / dg[p,0]  +  bs[0,c].
-/
import proofs.«163013_g78726750535692_cont_9to1_m_447_14_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products at an element -/

theorem adj_lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem adj_lhs_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem adj_rhs_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem adj_rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- An adjacency half-strip times a feature half, into the zero accumulator, at row `p`, column `j`: the sum over the
    2048 contracted columns. -/
theorem adjProduct_apply {φ₁ φ₂ : FTy} (a : FVec Ideal S512x2048 φ₁) (x : FVec Ideal S2048x256 φ₂) (p : Fin 512) (j : Fin 256) :
    matmul dot_S512x2048_S2048x256_S512x256_1_0_0_1_n_n none a x (constant (F := Ideal) S512x256 .f32 0x00000000#32) (ix2 p j)
      = ∑ k : Fin 2048, a (ix2 p k) * x (ix2 k j) := by
  show FloatOps.matmul dot_S512x2048_S2048x256_S512x256_1_0_0_1_n_n none a x (constant (F := Ideal) S512x256 .f32 0x00000000#32) (ix2 p j) = _
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p j) ((contrEquiv1 dot_S512x2048_S2048x256_S512x256_1_0_0_1_n_n 2048 rfl rfl).symm k) = ix2 p k := funext fun a => Fin.ext (by
    match a with
    | ⟨0, _⟩ => exact adj_lhs_0 _ _
    | ⟨1, _⟩ => exact (adj_lhs_1 _ _).trans hk)
  have er : dot_S512x2048_S2048x256_S512x256_1_0_0_1_n_n.rhsIdx (ix2 p j) ((contrEquiv1 dot_S512x2048_S2048x256_S512x256_1_0_0_1_n_n 2048 rfl rfl).symm k) = ix2 k j := funext fun a => Fin.ext (by
    match a with
    | ⟨0, _⟩ => exact (adj_rhs_0 _ _).trans hk
    | ⟨1, _⟩ => exact adj_rhs_1 _ _)
  rw [el, er]

theorem wgt_lhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem wgt_lhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem wgt_rhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem wgt_rhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The support strip times the weights, into the zero accumulator, at row `p`, column `c`: the sum over the 256
    contracted features. -/
theorem wgtProduct_apply (s : FVec Ideal S512x256 .f32) (w : FVec Ideal S256x256 .f32) (p : Fin 512) (c : Fin 256) :
    matmul dot_S512x256_S256x256_S512x256_1_0_0_1_n_n none s w (constant (F := Ideal) S512x256 .f32 0x00000000#32) (ix2 p c)
      = ∑ j : Fin 256, s (ix2 p j) * w (ix2 j c) := by
  show FloatOps.matmul dot_S512x256_S256x256_S512x256_1_0_0_1_n_n none s w (constant (F := Ideal) S512x256 .f32 0x00000000#32) (ix2 p c) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p c) ((contrEquiv1 dot_S512x256_S256x256_S512x256_1_0_0_1_n_n 256 rfl rfl).symm k) = ix2 p k := funext fun a => Fin.ext (by
    match a with
    | ⟨0, _⟩ => exact wgt_lhs_0 _ _
    | ⟨1, _⟩ => exact (wgt_lhs_1 _ _).trans hk)
  have er : dot_S512x256_S256x256_S512x256_1_0_0_1_n_n.rhsIdx (ix2 p c) ((contrEquiv1 dot_S512x256_S256x256_S512x256_1_0_0_1_n_n 256 rfl rfl).symm k) = ix2 k c := funext fun a => Fin.ext (by
    match a with
    | ⟨0, _⟩ => exact (wgt_rhs_0 _ _).trans hk
    | ⟨1, _⟩ => exact wgt_rhs_1 _ _)
  rw [el, er]

/-! ## The two broadcasts at an element -/

/-- The degree column broadcast along the rows: every column of row `p` reads the column's entry of that row. -/
theorem degBroadcast_apply (d : FVec Ideal S512x1 .f32) (p : Fin 512) (c : Fin 256) :
    broadcastTo S512x256 d broadcasts_S512x1_S512x256 (ix2 p c) = d (ix2 p 0) :=
  broadcastTo_apply d broadcasts_S512x1_S512x256 (ix2 p c) (ix2 p 0) (fun a => match a with
    | ⟨0, _⟩ => by show p.val = if (512 : Nat) = 1 then 0 else p.val; rw [if_neg (by decide)]
    | ⟨1, _⟩ => by show 0 = if (1 : Nat) = 1 then 0 else c.val; rw [if_pos rfl])

/-- The bias row broadcast down the columns: every row of column `c` reads the row's entry of that column. -/
theorem biasBroadcast_apply (b : FVec Ideal S1x256 .f32) (p : Fin 512) (c : Fin 256) :
    broadcastTo S512x256 b broadcasts_S1x256_S512x256 (ix2 p c) = b (ix2 0 c) :=
  broadcastTo_apply b broadcasts_S1x256_S512x256 (ix2 p c) (ix2 0 c) (fun a => match a with
    | ⟨0, _⟩ => by show 0 = if (1 : Nat) = 1 then 0 else p.val; rw [if_pos rfl]
    | ⟨1, _⟩ => by show c.val = if (256 : Nat) = 1 then 0 else c.val; rw [if_neg (by decide)])

/-! ## The payload at an element -/

/-- The body's stored value at row `p`, column `c` of the block, from its eight loads. -/
theorem payload_apply (aL : FVec Ideal S512x2048 .f32) (xL : FVec Ideal S2048x256 .bf16) (aR : FVec Ideal S512x2048 .f32)
    (xH : FVec Ideal S2048x256 .bf16) (xO : FVec Ideal S512x256 .bf16) (w : FVec Ideal S256x256 .f32) (dg : FVec Ideal S512x1 .f32)
    (bs : FVec Ideal S1x256 .f32) (p : Fin 512) (c : Fin 256) :
    k0_pay1 (F := Ideal) aL xL aR xH xO w dg bs (ix2 p c)
      = Ideal.div (∑ j : Fin 256, ((∑ k : Fin 2048, aL (ix2 p k) * xL (ix2 k j)) + (∑ k : Fin 2048, aR (ix2 p k) * xH (ix2 k j)) + xO (ix2 p j)) * w (ix2 j c))
          (dg (ix2 p 0)) + bs (ix2 0 c) := by
  unfold k0_pay1
  simp only [shapeCast_self]
  show Ideal.div (matmul dot_S512x256_S256x256_S512x256_1_0_0_1_n_n none _ w (constant (F := Ideal) S512x256 .f32 0x00000000#32) (ix2 p c))
      (broadcastTo S512x256 dg broadcasts_S512x1_S512x256 (ix2 p c)) + broadcastTo S512x256 bs broadcasts_S1x256_S512x256 (ix2 p c) = _
  rw [wgtProduct_apply, degBroadcast_apply, biasBroadcast_apply]
  refine congrArg (fun s => Ideal.div s (dg (ix2 p 0)) + bs (ix2 0 c)) (Finset.sum_congr rfl fun j _ => ?_)
  refine congrArg (· * w (ix2 j c)) ?_
  show matmul dot_S512x2048_S2048x256_S512x256_1_0_0_1_n_n none aL xL (constant (F := Ideal) S512x256 .f32 0x00000000#32) (ix2 p j)
      + matmul dot_S512x2048_S2048x256_S512x256_1_0_0_1_n_n none aR xH (constant (F := Ideal) S512x256 .f32 0x00000000#32) (ix2 p j) + xO (ix2 p j) = _
  rw [adjProduct_apply, adjProduct_apply]

end Cert.KernelIdeal.Payload

end
-- ==== Proof.GcnSpec.lean ====
/-
  The graph convolution both programs compute, as ONE function of the argument arrays over the extended reals, and
  the law that lets a row strip of it be computed from the two column halves of the adjacency matrix.

  For node features `x` (4096 × 256), a dense adjacency matrix `adj` (4096 × 4096), a degree column `deg`
  (4096 × 1), weights `W` (256 × 256) and a bias row `b` (1 × 256), the result at row `r`, column `c` is

      ( Σ_j ( Σ_k adj[r,k] · x[k,j]  +  x[r,j] ) · W[j,c] )  /  deg[r,0]   +   b[0,c].

  A kernel that works on strips of 512 rows and reads the adjacency strip as its left and right 2048 columns computes
  the inner sum as Σ_{k<2048} adj[r,k]·x[k,j] + Σ_{k<2048} adj[r,2048+k]·x[2048+k,j]: a sum over 4096 = 2048 + 2048
  terms split at its middle. Addition of extended reals is associative and commutative (a commutative monoid, the
  conventions at the infinities included), so the split is an identity with no finiteness assumption.

  This module imports no program.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals of literal extents. -/
abbrev Mat (n0 n1 : Nat) : Type := (⟨2, ![n0, n1]⟩ : Shape).Idx → EReal

/-- Row `p` of strip `t`: row `512·t + p` of the 4096. -/
def row (t : Fin 8) (p : Fin 512) : Fin 4096 := ⟨512 * t.val + p.val, by omega⟩
/-- Column (or feature row) `k` of the first half, -/
def lo (k : Fin 2048) : Fin 4096 := ⟨k.val, by omega⟩
/-- and of the second. -/
def hi (k : Fin 2048) : Fin 4096 := ⟨2048 + k.val, by omega⟩

/-- A bias vector of 256 entries as the one-row matrix the formula reads. -/
def biasRow (b : (⟨1, ![256]⟩ : Shape).Idx → EReal) : Mat 1 256 := fun i => b (ix1 ⟨(i 1).val, (i 1).isLt⟩)

/-- The result at row `r`, column `c`. -/
def gcnAt (x : Mat 4096 256) (adj : Mat 4096 4096) (deg : Mat 4096 1) (W : Mat 256 256) (b : Mat 1 256) (r : Fin 4096) (c : Fin 256) : EReal :=
  Ideal.div (∑ j : Fin 256, ((∑ k : Fin 4096, adj (ix2 r k) * x (ix2 k j)) + x (ix2 r j)) * W (ix2 j c)) (deg (ix2 r 0)) + b (ix2 0 c)

/-- The whole result array. -/
def gcn (x : Mat 4096 256) (adj : Mat 4096 4096) (deg : Mat 4096 1) (W : Mat 256 256) (b : Mat 1 256) : Mat 4096 256 :=
  fun i => gcnAt x adj deg W b ⟨(i 0).val, (i 0).isLt⟩ ⟨(i 1).val, (i 1).isLt⟩

theorem gcn_apply (x : Mat 4096 256) (adj : Mat 4096 4096) (deg : Mat 4096 1) (W : Mat 256 256) (b : Mat 1 256) (r : Fin 4096) (c : Fin 256) :
    gcn x adj deg W b (ix2 r c) = gcnAt x adj deg W b r c := rfl

/-- A sum over 4096 terms is the sum of its first 2048 and of its last 2048. -/
theorem sum_halves (f : Fin 4096 → EReal) : ∑ k : Fin 4096, f k = (∑ k : Fin 2048, f (lo k)) + ∑ k : Fin 2048, f (hi k) :=
  Fin.sum_univ_add (a := 2048) (b := 2048) f

/-- Row `p` of strip `t` of the result, from the two column halves of the adjacency strip and the matching halves
    of the features. -/
theorem gcnAt_row (x : Mat 4096 256) (adj : Mat 4096 4096) (deg : Mat 4096 1) (W : Mat 256 256) (b : Mat 1 256)
    (t : Fin 8) (p : Fin 512) (c : Fin 256) :
    Ideal.div (∑ j : Fin 256, ((∑ k : Fin 2048, adj (ix2 (row t p) (lo k)) * x (ix2 (lo k) j))
          + (∑ k : Fin 2048, adj (ix2 (row t p) (hi k)) * x (ix2 (hi k) j)) + x (ix2 (row t p) j)) * W (ix2 j c))
        (deg (ix2 (row t p) 0)) + b (ix2 0 c)
      = gcnAt x adj deg W b (row t p) c := by
  unfold gcnAt
  simp only [sum_halves]

end Cert.Gcn

end
-- ==== Proof.KernelIdealValue.lean ====
/-
  What the idealized kernel's result array holds after the run: the graph convolution of the argument arrays.

  Point `t` of the grid writes back rows `512·t … 512·t + 511` of the result. What it writes is the body's payload
  of the blocks it was handed; read at row `p`, column `c` of the block (the payload at an element), every block entry
  is an entry of an argument array at an index the windows' index maps give:
    * the two adjacency half-strips are rows `512·t + p` of the matrix, columns `k` and `2048 + k`;
    * the resident features are read at rows `k`, at rows `2048 + k`, and — through the point-dependent slice — at
      rows `512·t + p`;
    * the degree strip is rows `512·t + p` of the degree column; weights and bias row are whole.
  So the written block is block `t` of the specification's array (the split of the contracted sum at its middle is
  the specification's row law), the eight blocks cover the 4096 rows, and the array ends at the specification of the
  region-entry contents. The features the region finds are the host's bf16 conversion of the argument — the identity
  at the ideal instance — and the bias row it finds is the argument vector reshaped.
-/
import proofs.«163013_g78726750535692_cont_9to1_m_447_14_alg».proof.Proof.KernelIdealRun
import proofs.«163013_g78726750535692_cont_9to1_m_447_14_alg».proof.Proof.KernelIdealPayload
import proofs.«163013_g78726750535692_cont_9to1_m_447_14_alg».proof.Proof.GcnSpec
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand Cert.KernelIdeal.Payload Cert.Gcn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## Where each window's block sits -/

/-- A grid point as one of the 8 strips. -/
def strip (t : Fin cfg0.N) : Fin 8 := ⟨t.val, by have hN : grid0.N = 8 := N_0; have ht : t.val < grid0.N := t.isLt; omega⟩

/-- The printed index maps, decided over the grid: the row-strip windows sit at block row `t`, the right adjacency
    half at block column 1, the resident windows at block 0; the point's one coordinate is `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

/-- The kernel's slice offset at point `t`: row `512·t`, column 0. -/
theorem own_off (t : Fin cfg0.N) : k0_off1 (grid0.coords t) (0 : Fin 2) = 512 * t.val ∧ k0_off1 (grid0.coords t) (1 : Fin 2) = 0 := by
  obtain ⟨-, -, -, -, -, -, -, -, -, -, -, -, -, -, ht⟩ := idx_facts t
  rw [k0_off1_eq]
  exact ⟨by show 512 * ((grid0.coords t) 0).val = _; rw [ht], rfl⟩

variable {m} in
/-- Left adjacency half-strip, row `p`, column `k`: row `512·t + p`, column `k` of the matrix. -/
theorem read_adjL (c : Dev nD) (A : Buf (Elt Ideal) ((c : Thread nD τ).loc main_arg1)) (t : Fin cfg0.N) (p : Fin 512) (k : Fin 2048) :
    ((cfg0.win 0).blk t).view.read (Elt Ideal) A (ix2 p k) = A (ix2 (row (strip t) p) (lo k)) := by
  obtain ⟨e0, e1, -⟩ := idx_facts t
  show A (((cfg0.win 0).blk t).view.emb (ix2 p k)) = A (ix2 (row (strip t) p) (lo k))
  refine congrArg A (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * k.val = k.val; omega

/-- Right adjacency half-strip, row `p`, column `k`: row `512·t + p`, column `2048 + k`. -/
theorem read_adjR (c : Dev nD) (A : Buf (Elt Ideal) ((c : Thread nD τ).loc main_arg1)) (t : Fin cfg0.N) (p : Fin 512) (k : Fin 2048) :
    ((cfg0.win 1).blk t).view.read (Elt Ideal) A (ix2 p k) = A (ix2 (row (strip t) p) (hi k)) := by
  obtain ⟨-, -, e0, e1, -⟩ := idx_facts t
  show A (((cfg0.win 1).blk t).view.emb (ix2 p k)) = A (ix2 (row (strip t) p) (hi k))
  refine congrArg A (funext fun a => Fin.ext ?_)
  match a with
  | ⟨0, _⟩ => show win0_1.index t (0 : Fin 2) * 512 + 1 * p.val = 512 * t.val + p.val; omega
  | ⟨1, _⟩ => show win0_1.index t (1 : Fin 2) * 2048 + 1 * k.val = 2048 + k.val; omega

/-- The upper feature rows through the resident block: row `k`. -/
theorem read_featLo (c : Dev nD) (A : Buf (Elt Ideal) ((c : Thread nD τ).loc main_v1)) (t : Fin cfg0.N) (k : Fin 2048) (j : Fin 256) :
    View.ld (((cfg0.win 2).blk t).view.read (Elt Ideal) A) rFeatLo (ix2 k j) = A (ix2 (lo k) j) := by
  obtain ⟨-, -, -, -, e0, e1, -⟩ := idx_facts t
  show A (((cfg0.win 2).blk t).view.emb (rFeatLo.idx (ix2 k j))) = A (ix2 (lo k) j)
  refine congrArg A (funext fun a => Fin.ext ?_)
  match a with
  | ⟨0, _⟩ => show win0_2.index t (0 : Fin 2) * 4096 + 1 * (0 + 1 * k.val) = k.val; omega
  | ⟨1, _⟩ => show win0_2.index t (1 : Fin 2) * 256 + 1 * (0 + 1 * j.val) = j.val; omega

/-- The lower feature rows: row `2048 + k`. -/
theorem read_featHi (c : Dev nD) (A : Buf (Elt Ideal) ((c : Thread nD τ).loc main_v1)) (t : Fin cfg0.N) (k : Fin 2048) (j : Fin 256) :
    View.ld (((cfg0.win 2).blk t).view.read (Elt Ideal) A) rFeatHi (ix2 k j) = A (ix2 (hi k) j) := by
  obtain ⟨-, -, -, -, e0, e1, -⟩ := idx_facts t
  show A (((cfg0.win 2).blk t).view.emb (rFeatHi.idx (ix2 k j))) = A (ix2 (hi k) j)
  refine congrArg A (funext fun a => Fin.ext ?_)
  match a with
  | ⟨0, _⟩ => show win0_2.index t (0 : Fin 2) * 4096 + 1 * (2048 + 1 * k.val) = 2048 + k.val; omega
  | ⟨1, _⟩ => show win0_2.index t (1 : Fin 2) * 256 + 1 * (0 + 1 * j.val) = j.val; omega

/-- The strip's own feature rows, through the slice at the point's offset: row `512·t + p`. -/
theorem read_featOwn (c : Dev nD) (A : Buf (Elt Ideal) ((c : Thread nD τ).loc main_v1)) (t : Fin cfg0.N) (p : Fin 512) (j : Fin 256) :
    View.ld (((cfg0.win 2).blk t).view.read (Elt Ideal) A) (rFeatOwn (grid0.coords t)) (ix2 p j) = A (ix2 (row (strip t) p) j) := by
  obtain ⟨-, -, -, -, e0, e1, -⟩ := idx_facts t
  obtain ⟨o0, o1⟩ := own_off t
  show A (((cfg0.win 2).blk t).view.emb ((rFeatOwn (grid0.coords t)).idx (ix2 p j))) = A (ix2 (row (strip t) p) j)
  refine congrArg A (funext fun a => Fin.ext ?_)
  match a with
  | ⟨0, _⟩ => show win0_2.index t (0 : Fin 2) * 4096 + 1 * (k0_off1 (grid0.coords t) (0 : Fin 2) + 1 * p.val) = 512 * t.val + p.val; omega
  | ⟨1, _⟩ => show win0_2.index t (1 : Fin 2) * 256 + 1 * (k0_off1 (grid0.coords t) (1 : Fin 2) + 1 * j.val) = j.val; omega

/-- The degree strip, row `p`: row `512·t + p` of the column. -/
theorem read_deg (c : Dev nD) (A : Buf (Elt Ideal) ((c : Thread nD τ).loc main_arg2)) (t : Fin cfg0.N) (p : Fin 512) :
    ((cfg0.win 3).blk t).view.read (Elt Ideal) A (ix2 p 0) = A (ix2 (row (strip t) p) 0) := by
  obtain ⟨-, -, -, -, -, -, e0, e1, -⟩ := idx_facts t
  show A (((cfg0.win 3).blk t).view.emb (ix2 p 0)) = A (ix2 (row (strip t) p) 0)
  refine congrArg A (funext fun a => Fin.ext ?_)
  match a with
  | ⟨0, _⟩ => show win0_3.index t (0 : Fin 2) * 512 + 1 * p.val = 512 * t.val + p.val; omega
  | ⟨1, _⟩ => show win0_3.index t (1 : Fin 2) * 1 + 1 * 0 = 0; omega

/-- The weights, whole. -/
theorem read_wgt (c : Dev nD) (A : Buf (Elt Ideal) ((c : Thread nD τ).loc main_arg3)) (t : Fin cfg0.N) (j q : Fin 256) :
    ((cfg0.win 4).blk t).view.read (Elt Ideal) A (ix2 j q) = A (ix2 j q) := by
  obtain ⟨-, -, -, -, -, -, -, -, e0, e1, -⟩ := idx_facts t
  show A (((cfg0.win 4).blk t).view.emb (ix2 j q)) = A (ix2 j q)
  refine congrArg A (funext fun a => Fin.ext ?_)
  match a with
  | ⟨0, _⟩ => show win0_4.index t (0 : Fin 2) * 256 + 1 * j.val = j.val; omega
  | ⟨1, _⟩ => show win0_4.index t (1 : Fin 2) * 256 + 1 * q.val = q.val; omega

/-- The bias row, whole. -/
theorem read_bias (c : Dev nD) (A : Buf (Elt Ideal) ((c : Thread nD τ).loc main_v0)) (t : Fin cfg0.N) (q : Fin 256) :
    ((cfg0.win 5).blk t).view.read (Elt Ideal) A (ix2 0 q) = A (ix2 0 q) := by
  obtain ⟨-, -, -, -, -, -, -, -, -, -, e0, e1, -⟩ := idx_facts t
  show A (((cfg0.win 5).blk t).view.emb (ix2 0 q)) = A (ix2 0 q)
  refine congrArg A (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

/-- Row `p`, column `q` of the result's block at point `t` is row `512·t + p`, column `q` of the array. -/
theorem out_at (t : Fin cfg0.N) (p : Fin 512) (q : Fin 256) :
    ((cfg0.win 6).blk t).view.emb (ix2 p q) = ix2 (row (strip t) p) q := by
  obtain ⟨-, -, -, -, -, -, -, -, -, -, -, -, e0, e1, -⟩ := idx_facts t
  refine funext fun a => Fin.ext ?_
  match a with
  | ⟨0, _⟩ => show win0_6.index t (0 : Fin 2) * 512 + 1 * p.val = 512 * t.val + p.val; omega
  | ⟨1, _⟩ => show win0_6.index t (1 : Fin 2) * 256 + 1 * q.val = q.val; omega

/-- Row `p`, column `q` of block `t` of an array of the result's shape is its row `512·t + p`, column `q`. -/
theorem read_out (c : Dev nD) (G : Buf (Elt Ideal) ((c : Thread nD τ).loc main_v2)) (t : Fin cfg0.N) (p : Fin 512) (q : Fin 256) :
    ((cfg0.win 6).blk t).view.read (Elt Ideal) G (ix2 p q) = G (ix2 (row (strip t) p) q) := by
  show G (((cfg0.win 6).blk t).view.emb (ix2 p q)) = G (ix2 (row (strip t) p) q)
  rw [out_at]

/-! ## What a point writes back -/

theorem hz : (![0, 0] : Fin 2 → Nat) = fun _ => 0 := funext fun a => by fin_cases a <;> rfl

/-- WHAT POINT `t` WRITES BACK is block `t` of the graph convolution of the arrays as the region finds them. -/
theorem flushed_eq (c : Dev nD) (t : Fin cfg0.N) :
    (dats m 0 c).flushed 6 t = ((cfg0.win 6).blk t).view.read (Elt Ideal)
      (gcn (V m c main_v1) (V m c main_arg1) (V m c main_arg2) (V m c main_arg3) (V m c main_v0)) := by
  show (cfg0.win 6).cut (grid0.coords t) ((dats m 0 c).after 6 t) = _
  rw [after_6]
  unfold resultBlock
  rw [View.canon_unit_zero hz]
  simp only [View.ld_unit_zero (S := S512x2048) hz, View.ld_unit_zero (S := S256x256) hz, View.ld_unit_zero (S := S512x1) hz,
    View.ld_unit_zero (S := S1x256) hz]
  funext j
  obtain ⟨p, q, rfl⟩ : ∃ (p : Fin 512) (q : Fin 256), j = ix2 p q := ⟨j 0, j 1, eq_ix2 j⟩
  refine (payload_apply _ _ _ _ _ _ _ _ p q).trans ?_
  refine Eq.trans ?_ (read_out c _ t p q).symm
  refine Eq.trans ?_ (gcn_apply _ _ _ _ _ (row (strip t) p) q).symm
  refine Eq.trans ?_ (gcnAt_row _ _ _ _ _ (strip t) p q)
  exact congrArg₂ (· + ·) (congrArg₂ Ideal.div (Finset.sum_congr rfl fun j _ => congrArg₂ (· * ·) (congrArg₂ (· + ·) (congrArg₂ (· + ·)
      (Finset.sum_congr rfl fun k _ => congrArg₂ (· * ·) (read_adjL c (V m c main_arg1) t p k) (read_featLo c (V m c main_v1) t k j))
      (Finset.sum_congr rfl fun k _ => congrArg₂ (· * ·) (read_adjR c (V m c main_arg1) t p k) (read_featHi c (V m c main_v1) t k j)))
      (read_featOwn c (V m c main_v1) t p j)) (read_wgt c (V m c main_arg3) t j q)) (read_deg c (V m c main_arg2) t p))
    (read_bias c (V m c main_v0) t q)

/-! ## The eight blocks cover the array -/

/-- An index of the result array is in point `t`'s block iff each coordinate is in the block's range on its axis. -/
theorem mem_blk (t : Fin cfg0.N) (i : S4096x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v2).slice (win0_6.rect t)).set ↔ _
  rw [View.set_slice_whole, Rect.mem_set_unit]
  exact Iff.rfl

/-- Row `r` is in the block of point `r / 512`, which writes back. -/
theorem covered (i : S4096x256.Idx) : ∃ t : Fin cfg0.N, (cfg0.win 6).flush t = true ∧ i ∈ ((cfg0.win 6).blk t).view.set := by
  have hi0 : (i 0).val < 4096 := (i 0).isLt
  have hi1 : (i 1).val < 256 := (i 1).isLt
  have hN : grid0.N = 8 := N_0
  have hlt : (i 0).val / 512 < grid0.N := by omega
  refine ⟨⟨(i 0).val / 512, hlt⟩, flush0_6 _, ?_⟩
  obtain ⟨-, -, -, -, -, -, -, -, -, -, -, -, e0, e1, -⟩ := idx_facts ⟨(i 0).val / 512, hlt⟩
  have e0' : win0_6.index ⟨(i 0).val / 512, hlt⟩ (0 : Fin 2) = (i 0).val / 512 := e0
  rw [mem_blk]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    omega
  | ⟨1, _⟩ =>
    show win0_6.index ⟨(i 0).val / 512, hlt⟩ (1 : Fin 2) * 256 ≤ (i 1).val ∧ (i 1).val < win0_6.index ⟨(i 0).val / 512, hlt⟩ (1 : Fin 2) * 256 + 256
    omega

/-- THE RESULT ARRAY after the run: the graph convolution of the arrays as the region finds them. -/
theorem final (c : Dev nD) : (dats m 0 c).arrAt 6 cfg0.N
    = gcn (V m c main_v1) (V m c main_arg1) (V m c main_arg2) (V m c main_arg3) (V m c main_v0) :=
  (dats m 0 c).arrAt_eq_of_cover 6 _ (fun t _ => flushed_eq m c t) covered

/-! ## The arrays the host operations wrote before the region -/

/-- The features the region finds: the argument converted to bf16 — at the ideal instance, the argument. -/
theorem feat_entry (c : Dev nD) : (V m c main_v1 : S4096x256.Idx → EReal) = (m ((c : Thread nD τ).loc main_arg0) : S4096x256.Idx → EReal) := by
  dsimp only [V, hostOps0]; after_results; rfl

/-- The bias row the region finds: the argument vector reshaped to one row. -/
theorem bias_entry (c : Dev nD) : (V m c main_v0 : S1x256.Idx → EReal) = biasRow (m ((c : Thread nD τ).loc main_arg4)) := by
  dsimp only [V, hostOps0]; after_results
  funext (i : S1x256.Idx)
  show shapeCast S1x256 (m (c, Proc.tc.devRef main_arg4) : S256.Idx → EReal) shapeCasts_S256_S1x256 i = _
  refine (shapeCast_apply (m (c, Proc.tc.devRef main_arg4) : S256.Idx → EReal) shapeCasts_S256_S1x256 i (ix1 ⟨(i 1).val, (i 1).isLt⟩) ?_).trans rfl
  have h0 : (i 0).val < 1 := (i 0).isLt
  show ((⟨1, ![256]⟩ : Shape).rowMajor (ix1 (⟨(i 1).val, (i 1).isLt⟩ : Fin 256))).val = ((⟨2, ![1, 256]⟩ : Shape).rowMajor i).val
  rw [Shape.rowMajor_val_one, Shape.rowMajor_val_two]
  show (i 1).val = (i 0).val * 256 + (i 1).val
  omega

/-! ## The run, read -/

/-- The frame run re-posted: the result array at the graph convolution of the ARGUMENT arrays, the arguments
    unchanged. -/
theorem run : θ_run defs (onTc (τ := τ) (main (F := Ideal))) ⟨m, fun _ => 0, ρ⟩ fun r => ∀ c : Dev nD,
      r.2.mem ((c : Thread nD τ).loc main_v2) = gcn (m ((c : Thread nD τ).loc main_arg0)) (m ((c : Thread nD τ).loc main_arg1))
          (m ((c : Thread nD τ).loc main_arg2)) (m ((c : Thread nD τ).loc main_arg3)) (biasRow (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).1 6).trans ((final m c).trans (by rw [feat_entry, bias_entry, V_main_arg1, V_main_arg2, V_main_arg3])),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩)
    (run_main m ρ)

end Cert.KernelIdeal.HandValue

end
-- ==== Proof.ReferenceValue.lean ====
/-
  The reference's result, operation by operation, is the graph convolution of its arguments: two matrix products on
  the host (at the ideal instance, plain sums over the contracted axis), the residual add between them, the division
  by the degree column broadcast along the rows, and the bias broadcast down the columns. Read at row `r`, column
  `c`, the eight stages compose to the specification's formula term for term; only the composed index functions have
  to be identified with indices built from the coordinates.
-/
import proofs.«163013_g78726750535692_cont_9to1_m_447_14_alg».proof.Proof.Gen.ReferenceIdeal.Read
import proofs.«163013_g78726750535692_cont_9to1_m_447_14_alg».proof.Proof.GcnSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.Gcn

/-! ## The stages' index functions at coordinates -/

theorem lidx2_eq (r : Fin 4096) (c j : Fin 256) : lidx_main_v2 (ix2 r c) j = ix2 r j :=
  funext fun a => Fin.ext (by match a with | ⟨0, _⟩ => rfl | ⟨1, _⟩ => rfl)
theorem ridx2_eq (r : Fin 4096) (c j : Fin 256) : ridx_main_v2 (ix2 r c) j = ix2 j c :=
  funext fun a => Fin.ext (by match a with | ⟨0, _⟩ => rfl | ⟨1, _⟩ => rfl)
theorem lidx0_eq (r : Fin 4096) (j : Fin 256) (k : Fin 4096) : lidx_main_v0 (ix2 r j) k = ix2 r k :=
  funext fun a => Fin.ext (by match a with | ⟨0, _⟩ => rfl | ⟨1, _⟩ => rfl)
theorem ridx0_eq (r : Fin 4096) (j : Fin 256) (k : Fin 4096) : ridx_main_v0 (ix2 r j) k = ix2 k j :=
  funext fun a => Fin.ext (by match a with | ⟨0, _⟩ => rfl | ⟨1, _⟩ => rfl)
theorem idx3_eq (r : Fin 4096) (c : Fin 256) : idx_main_v3 (ix2 r c) = ix2 r 0 :=
  funext fun a => Fin.ext (by match a with | ⟨0, _⟩ => rfl | ⟨1, _⟩ => rfl)
theorem idx6_eq (r : Fin 4096) (c : Fin 256) : idx_main_v6 (ix2 r c) = ix2 0 c :=
  funext fun a => Fin.ext (by match a with | ⟨0, _⟩ => rfl | ⟨1, _⟩ => rfl)
theorem idx5_eq (c : Fin 256) : idx_main_v5 (ix2 0 c) = ix1 c :=
  funext fun a => Fin.ext (by match a with | ⟨0, _⟩ => rfl)

/-- The reference's last stage is the graph convolution of the arguments. -/
theorem reference_is_gcn (x : (⟨S4096x256, .f32⟩ : BufTy).Contents (Elt Ideal)) (adj : (⟨S4096x4096, .f32⟩ : BufTy).Contents (Elt Ideal))
    (deg : (⟨S4096x1, .f32⟩ : BufTy).Contents (Elt Ideal)) (W : (⟨S256x256, .f32⟩ : BufTy).Contents (Elt Ideal))
    (b : (⟨S256, .f32⟩ : BufTy).Contents (Elt Ideal)) :
    val_main_v7 (F := Ideal) x adj deg W b = gcn x adj deg W (biasRow b) := by
  funext i
  obtain ⟨r, c, rfl⟩ : ∃ (r : Fin 4096) (c : Fin 256), i = ix2 r c := ⟨i 0, i 1, eq_ix2 i⟩
  rw [gcn_apply, val_main_v7_apply, val_main_v4_apply, val_main_v6_apply, val_main_v5_apply, val_main_v3_apply, val_main_v2_apply]
  simp only [val_main_v1_apply, val_main_v0_apply, lidx2_eq, ridx2_eq, lidx0_eq, ridx0_eq, idx3_eq, idx6_eq, idx5_eq]
  rfl

end Cert.ReferenceIdeal.RefValue

end
-- ==== Proof.lean ====
/-
  The certificate: a fused graph-convolution kernel against its jnp reference, over the extended reals.

  Both programs compute, for node features `x`, a dense adjacency matrix `adj`, a degree column `deg`, weights `W`
  and a bias `b`,   out = ((adj · x + x) · W) / deg + b.
  The reference does it on the host in eight operations over the whole arrays. The kernel converts the features to
  bf16 on the host, then runs one pipelined region over 8 strips of 512 rows: each point is handed the strip of `adj`
  as its left and right column halves — two input windows on one array —, multiplies each by the matching half of the
  resident features, adds the strip's own feature rows (a slice at a point-dependent offset), multiplies by the
  resident weights, divides by the degree strip and adds the bias row.

  At the ideal instance a change of float format is the identity and a matrix product is the plain sum over its
  contracted axis, so the two programs differ only in that the kernel splits the 4096-term contraction at its middle:
  an identity of the extended reals' commutative monoid, with no finiteness needed. The precondition is never opened.

  * The frames of the kernel and of its idealization: the run of the region with the adjacency matrix's buffer dealt
    by halves to its two windows (Proof/KernelRun.lean, Proof/KernelIdealRun.lean, over Proof/LibSharedFrame.lean).
  * The reference's frame: its run with the result dropped.
  * `preserves`: the idealization rewrote nothing.
  * `algebraic`: the kernel's result array ends at the specification of the arguments (Proof/KernelIdealValue.lean),
    the reference's at the same (Proof/ReferenceValue.lean), the specification stated once (Proof/GcnSpec.lean).
-/
import proofs.«163013_g78726750535692_cont_9to1_m_447_14_alg».proof.Defs
import proofs.«163013_g78726750535692_cont_9to1_m_447_14_alg».proof.Proof.Gen.Kernel
import proofs.«163013_g78726750535692_cont_9to1_m_447_14_alg».proof.Proof.Gen.KernelIdeal
import proofs.«163013_g78726750535692_cont_9to1_m_447_14_alg».proof.Proof.Gen.ReferenceIdeal
import proofs.«163013_g78726750535692_cont_9to1_m_447_14_alg».proof.Proof.Gen.Pre_finite_inputs
import proofs.«163013_g78726750535692_cont_9to1_m_447_14_alg».proof.Proof.Gen.ReferenceIdeal.Run
import proofs.«163013_g78726750535692_cont_9to1_m_447_14_alg».proof.Proof.Gen.ReferenceIdeal.Read
import proofs.«163013_g78726750535692_cont_9to1_m_447_14_alg».proof.Proof.KernelRun
import proofs.«163013_g78726750535692_cont_9to1_m_447_14_alg».proof.Proof.KernelIdealValue
import proofs.«163013_g78726750535692_cont_9to1_m_447_14_alg».proof.Proof.ReferenceValue
import Idealize.ShloMosaic.Adequacy
import Idealize.ShloMosaic.Init

noncomputable section

namespace Cert.Proof

open Idealize.ShloMosaic Idealize.SL.Sem Cert.Gcn

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end at the graph convolution of the (agreeing) argument arrays. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_is_gcn,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
